-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v5) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2000000x8 : Shape := ⟨2, ![2000000, 8]⟩
abbrev S_ : Shape := ⟨0, ![]⟩

class Facts : Prop where
  bcast_S_S2000000x8 : S_.BroadcastsInDim S2000000x8 (![] : Fin 0 → Fin S2000000x8.rank)
  reducesTo_S2000000x8_S_d0_1 : S2000000x8.ReducesTo [0, 1] S_
  h_S_ : 0 < S_.numel

variable [Facts]

def fn_part1 {F : FTy → Type} [FloatOps F] (main_v13 : IVec S_ 1) (main_v16 : IVec S2000000x8 1) : IVec S_ 1 :=
  let main_c_5 : IVec S_ 1 := constantI S_ 1 1#1
  let main_v17 : IVec S_ 1 := (fun x v => Host.reduce IntOp.andi x v reducesTo_S2000000x8_S_d0_1 h_S_) main_v16 main_c_5
  let main_v18 : IVec S_ 1 := andi main_v13 main_v17
  main_v18

def fn {F : FTy → Type} [FloatOps F] (main_arg0 : FVec F S2000000x8 .f32) (main_arg1 : FVec F S2000000x8 .f32) (main_arg2 : FVec F S2000000x8 .f32) (main_arg3 : FVec F S2000000x8 .f32) : IVec S_ 1 :=
  let main_v0 : FVec F S2000000x8 .f32 := Host.absf main_arg0
  let main_cst : FVec F S_ .f32 := constant S_ .f32 0x7F800000#32
  let main_v1 : FVec F S2000000x8 .f32 := broadcastInDim S2000000x8 ![] bcast_S_S2000000x8 main_cst
  let main_v2 : IVec S2000000x8 1 := cmpf .olt main_v0 main_v1
  let main_c : IVec S_ 1 := constantI S_ 1 1#1
  let main_v3 : IVec S_ 1 := (fun x v => Host.reduce IntOp.andi x v reducesTo_S2000000x8_S_d0_1 h_S_) main_v2 main_c
  let main_v4 : FVec F S2000000x8 .f32 := Host.absf main_arg1
  let main_cst_0 : FVec F S_ .f32 := constant S_ .f32 0x7F800000#32
  let main_v5 : FVec F S2000000x8 .f32 := broadcastInDim S2000000x8 ![] bcast_S_S2000000x8 main_cst_0
  let main_v6 : IVec S2000000x8 1 := cmpf .olt main_v4 main_v5
  let main_c_1 : IVec S_ 1 := constantI S_ 1 1#1
  let main_v7 : IVec S_ 1 := (fun x v => Host.reduce IntOp.andi x v reducesTo_S2000000x8_S_d0_1 h_S_) main_v6 main_c_1
  let main_v8 : IVec S_ 1 := andi main_v3 main_v7
  let main_v9 : FVec F S2000000x8 .f32 := Host.absf main_arg2
  let main_cst_2 : FVec F S_ .f32 := constant S_ .f32 0x7F800000#32
  let main_v10 : FVec F S2000000x8 .f32 := broadcastInDim S2000000x8 ![] bcast_S_S2000000x8 main_cst_2
  let main_v11 : IVec S2000000x8 1 := cmpf .olt main_v9 main_v10
  let main_c_3 : IVec S_ 1 := constantI S_ 1 1#1
  let main_v12 : IVec S_ 1 := (fun x v => Host.reduce IntOp.andi x v reducesTo_S2000000x8_S_d0_1 h_S_) main_v11 main_c_3
  let main_v13 : IVec S_ 1 := andi main_v8 main_v12
  let main_v14 : FVec F S2000000x8 .f32 := Host.absf main_arg3
  let main_cst_4 : FVec F S_ .f32 := constant S_ .f32 0x7F800000#32
  let main_v15 : FVec F S2000000x8 .f32 := broadcastInDim S2000000x8 ![] bcast_S_S2000000x8 main_cst_4
  let main_v16 : IVec S2000000x8 1 := cmpf .olt main_v14 main_v15
  fn_part1 (F := F) main_v13 main_v16
-- ==== Kernel.lean ====
abbrev S2000000x8 : Shape := ⟨2, ![2000000, 8]⟩
abbrev S2000000x1 : Shape := ⟨2, ![2000000, 1]⟩
abbrev S2000x8 : Shape := ⟨2, ![2000, 8]⟩
abbrev S2000x1 : Shape := ⟨2, ![2000, 1]⟩
abbrev S2000 : Shape := ⟨1, ![2000]⟩
abbrev S8x8 : Shape := ⟨2, ![8, 8]⟩

abbrev nBuf : Space → Nat
  | .hbm => 7
  | .vmem => 14
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S2000000x8, .f32⟩
  | .hbm, ⟨3, _⟩ => ⟨S2000000x8, .f32⟩
  | .hbm, ⟨4, _⟩ => ⟨S2000000x8, .f32⟩
  | .hbm, ⟨5, _⟩ => ⟨S2000000x8, .f32⟩
  | .hbm, ⟨6, _⟩ => ⟨S2000000x1, .f32⟩
  | .local _ .vmem, ⟨0, _⟩ => ⟨S2000x8, .f32⟩
  | .local _ .vmem, ⟨1, _⟩ => ⟨S2000x8, .f32⟩
  | .local _ .vmem, ⟨2, _⟩ => ⟨S2000x8, .f32⟩
  | .local _ .vmem, ⟨3, _⟩ => ⟨S2000x8, .f32⟩
  | .local _ .vmem, ⟨4, _⟩ => ⟨S2000x8, .f32⟩
  | .local _ .vmem, ⟨5, _⟩ => ⟨S2000x8, .f32⟩
  | .local _ .vmem, ⟨6, _⟩ => ⟨S2000x8, .f32⟩
  | .local _ .vmem, ⟨7, _⟩ => ⟨S2000x8, .f32⟩
  | .local _ .vmem, ⟨8, _⟩ => ⟨S2000x8, .f32⟩
  | .local _ .vmem, ⟨9, _⟩ => ⟨S2000x8, .f32⟩
  | .local _ .vmem, ⟨10, _⟩ => ⟨S2000x8, .f32⟩
  | .local _ .vmem, ⟨11, _⟩ => ⟨S2000x8, .f32⟩
  | .local _ .vmem, ⟨12, _⟩ => ⟨S2000x1, .f32⟩
  | .local _ .vmem, ⟨13, _⟩ => ⟨S2000x1, .f32⟩
  | _, _ => ⟨S2000000x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![1000], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x8 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x8 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x8 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S2000x8_S2000x8_0_0 : ∀ a, (![0, 0] : Fin 2 → Nat) a + S2000x8.size a ≤ S2000x8.size a
  h_S2000x8 : 0 < S2000x8.numel
  reduces_S2000x8_S2000 : S2000x8.Reduces [1] S2000
  shapeCasts_S2000_S2000x1 : S2000.ShapeCasts S2000x1
  natLt_1_32 : 1 < 32
  iota_S8x8_d0_w32 : S8x8.Iotas .tc 32 [0]
  iota_S8x8_d1_w32 : S8x8.Iotas .tc 32 [1]
  broadcasts_S2000x1_S2000x8 : S2000x1.Broadcasts S2000x8
  inb_S2000x1_S2000x1_0_0 : ∀ a, (![0, 0] : Fin 2 → Nat) a + S2000x1.size a ≤ S2000x1.size a
  h_S2000x1 : 0 < S2000x1.numel
  dot_S2000x8_S8x8_S2000x8_1_0_0_1_n_n_wf : DotDims.WF S2000x8 S8x8 S2000x8 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x8.size a ≤ S2000000x8.size a
  hwx0_0 : ∀ i : grid0.Coords, EltTy.bits .f32 = 32 ∨ (Rect.block (s := S2000000x8) S2000x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x8.size a ≤ S2000000x8.size a
  hwx0_1 : ∀ i : grid0.Coords, EltTy.bits .f32 = 32 ∨ (Rect.block (s := S2000000x8) S2000x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x8.size a ≤ S2000000x8.size a
  hwx0_2 : ∀ i : grid0.Coords, EltTy.bits .f32 = 32 ∨ (Rect.block (s := S2000000x8) S2000x8.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x8.size a ≤ S2000000x8.size a
  hwx0_3 : ∀ i : grid0.Coords, EltTy.bits .f32 = 32 ∨ (Rect.block (s := S2000000x8) S2000x8.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x8.size a ≤ S2000000x8.size a
  hwx0_4 : ∀ i : grid0.Coords, EltTy.bits .f32 = 32 ∨ (Rect.block (s := S2000000x8) S2000x8.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x8.size a ≤ S2000000x8.size a
  hwx0_5 : ∀ i : grid0.Coords, EltTy.bits .f32 = 32 ∨ (Rect.block (s := S2000000x8) S2000x8.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S2000000x1.size a
  hwx0_6 : ∀ i : grid0.Coords, EltTy.bits .f32 = 32 ∨ (Rect.block (s := S2000000x1) S2000x1.size (cc0_transform_6 i) (hinb0_6 i)).WholeWords (EltTy.packing .f32)

variable [Facts₀]

def dot_S2000x8_S8x8_S2000x8_1_0_0_1_n_n : DotDims S2000x8 S8x8 S2000x8 where
  lhsContracting := [1]
  rhsContracting := [0]
  lhsNonContracting := [0]
  rhsNonContracting := [1]
  lhsBatch := []
  rhsBatch := []
  wf := dot_S2000x8_S8x8_S2000x8_1_0_0_1_n_n_wf

abbrev win0_0 : Pipeline.Window sig grid0 :=
  Pipeline.Window.ofSpec (Memref.whole main_arg0) S2000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2000x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S2000x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S2000x8.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S2000x8.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S2000x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2000000x8 : Shape := ⟨2, ![2000000, 8]⟩
abbrev S_ : Shape := ⟨0, ![]⟩
abbrev S2000000 : Shape := ⟨1, ![2000000]⟩
abbrev S2000000x1 : Shape := ⟨2, ![2000000, 1]⟩
abbrev S8x8 : Shape := ⟨2, ![8, 8]⟩

abbrev nBuf : Space → Nat
  | .hbm => 51
  | .vmem => 0
  | .smem => 0
  | _ => 0

abbrev bufTy : (tb : Table) → Fin (tcTables nBuf tb) → BufTy
  | .hbm, ⟨0, _⟩ => ⟨S2000000x8, .f32⟩
  | .hbm, ⟨1, _⟩ => ⟨S2000000x8, .f32⟩
  | .hbm, ⟨2, _⟩ => ⟨S2000000x8, .f32⟩
  | .hbm, ⟨3, _⟩ => ⟨S2000000x8, .f32⟩
  | .hbm, ⟨4, _⟩ => ⟨S2000000x8, .f32⟩
  | .hbm, ⟨5, _⟩ => ⟨S_, .f32⟩
  | .hbm, ⟨6, _⟩ => ⟨S2000000x8, .f32⟩
  | .hbm, ⟨7, _⟩ => ⟨S2000000x8, .i1⟩
  | .hbm, ⟨8, _⟩ => ⟨S_, .i1⟩
  | .hbm, ⟨9, _⟩ => ⟨S2000000, .i1⟩
  | .hbm, ⟨10, _⟩ => ⟨S2000000x1, .i1⟩
  | .hbm, ⟨11, _⟩ => ⟨S2000000x1, .f32⟩
  | .hbm, ⟨12, _⟩ => ⟨S8x8, .i32⟩
  | .hbm, ⟨13, _⟩ => ⟨S8x8, .i32⟩
  | .hbm, ⟨14, _⟩ => ⟨S_, .i32⟩
  | .hbm, ⟨15, _⟩ => ⟨S8x8, .i32⟩
  | .hbm, ⟨16, _⟩ => ⟨S8x8, .i32⟩
  | .hbm, ⟨17, _⟩ => ⟨S8x8, .i1⟩
  | .hbm, ⟨18, _⟩ => ⟨S_, .f32⟩
  | .hbm, ⟨19, _⟩ => ⟨S_, .f32⟩
  | .hbm, ⟨20, _⟩ => ⟨S8x8, .f32⟩
  | .hbm, ⟨21, _⟩ => ⟨S8x8, .f32⟩
  | .hbm, ⟨22, _⟩ => ⟨S8x8, .f32⟩
  | .hbm, ⟨23, _⟩ => ⟨S2000000x8, .f32⟩
  | .hbm, ⟨24, _⟩ => ⟨S_, .f32⟩
  | .hbm, ⟨25, _⟩ => ⟨S2000000, .f32⟩
  | .hbm, ⟨26, _⟩ => ⟨S2000000x1, .f32⟩
  | .hbm, ⟨27, _⟩ => ⟨S_, .f32⟩
  | .hbm, ⟨28, _⟩ => ⟨S2000000x8, .f32⟩
  | .hbm, ⟨29, _⟩ => ⟨S2000000x8, .f32⟩
  | .hbm, ⟨30, _⟩ => ⟨S2000000x8, .f32⟩
  | .hbm, ⟨31, _⟩ => ⟨S2000000x8, .f32⟩
  | .hbm, ⟨32, _⟩ => ⟨S2000000x8, .f32⟩
  | .hbm, ⟨33, _⟩ => ⟨S2000000x8, .f32⟩
  | .hbm, ⟨34, _⟩ => ⟨S2000000x8, .f32⟩
  | .hbm, ⟨35, _⟩ => ⟨S_, .f32⟩
  | .hbm, ⟨36, _⟩ => ⟨S2000000x8, .f32⟩
  | .hbm, ⟨37, _⟩ => ⟨S2000000x8, .f32⟩
  | .hbm, ⟨38, _⟩ => ⟨S2000000x8, .f32⟩
  | .hbm, ⟨39, _⟩ => ⟨S_, .f32⟩
  | .hbm, ⟨40, _⟩ => ⟨S2000000x1, .f32⟩
  | .hbm, ⟨41, _⟩ => ⟨S2000000x1, .f32⟩
  | .hbm, ⟨42, _⟩ => ⟨S2000000x8, .f32⟩
  | .hbm, ⟨43, _⟩ => ⟨S2000000x8, .f32⟩
  | .hbm, ⟨44, _⟩ => ⟨S_, .f32⟩
  | .hbm, ⟨45, _⟩ => ⟨S2000000x8, .f32⟩
  | .hbm, ⟨46, _⟩ => ⟨S2000000x8, .f32⟩
  | .hbm, ⟨47, _⟩ => ⟨S2000000x8, .f32⟩
  | .hbm, ⟨48, _⟩ => ⟨S_, .f32⟩
  | .hbm, ⟨49, _⟩ => ⟨S2000000x8, .f32⟩
  | .hbm, ⟨50, _⟩ => ⟨S2000000x8, .f32⟩
  | _, _ => ⟨S2000000x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_cst_2 : Ref sig .tc := ⟨.hbm, 19, rfl⟩
abbrev main_call0_v0 : Ref sig .tc := ⟨.hbm, 20, rfl⟩
abbrev main_call0_v1 : Ref sig .tc := ⟨.hbm, 21, rfl⟩
abbrev main_v11 : Ref sig .tc := ⟨.hbm, 22, rfl⟩
abbrev main_v12 : Ref sig .tc := ⟨.hbm, 23, rfl⟩
abbrev main_cst_3 : Ref sig .tc := ⟨.hbm, 24, rfl⟩
abbrev main_v13 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_cst : Ref sig .tc := ⟨.hbm, 48, rfl⟩
abbrev main_call1_v0 : Ref sig .tc := ⟨.hbm, 49, rfl⟩
abbrev main_v32 : Ref sig .tc := ⟨.hbm, 50, rfl⟩

abbrev nD : Nat := 1
abbrev τ : Topo := Topo.v7x

variable {F : FTy → Type} [FloatOps F]

class Facts₀ : Prop where
  bcast_S_S2000000x8 : S_.BroadcastsInDim S2000000x8 (![] : Fin 0 → Fin S2000000x8.rank)
  reducesTo_S2000000x8_S2000000_d1 : S2000000x8.ReducesTo [1] S2000000
  h_S_ : 0 < S_.numel
  bcast_S2000000_S2000000x1_0 : S2000000.BroadcastsInDim S2000000x1 (![0] : Fin 1 → Fin S2000000x1.rank)
  bcast_S_S8x8 : S_.BroadcastsInDim S8x8 (![] : Fin 0 → Fin S8x8.rank)
  bcast_S2000000x1_S2000000x8_0_1 : S2000000x1.BroadcastsInDim S2000000x8 (![0, 1] : Fin 2 → Fin S2000000x8.rank)
  bcast_S_S2000000x1 : S_.BroadcastsInDim S2000000x1 (![] : Fin 0 → Fin S2000000x1.rank)
  dot_S2000000x8_S8x8_S2000000x8_1_0_0_1_n_n_wf : DotDims.WF S2000000x8 S8x8 S2000000x8 [1] [0] [0] [1] [] []

variable [Facts₀]

def dot_S2000000x8_S8x8_S2000000x8_1_0_0_1_n_n : DotDims S2000000x8 S8x8 S2000000x8 where
  lhsContracting := [1]
  rhsContracting := [0]
  lhsNonContracting := [0]
  rhsNonContracting := [1]
  lhsBatch := []
  rhsBatch := []
  wf := dot_S2000000x8_S8x8_S2000000x8_1_0_0_1_n_n_wf

class Facts : Prop extends Facts₀ where

variable [Facts]
-- ==== Proof.LcaRow.lean ====
/-
  One step of a leaky competing accumulator, one row at a time.

  A row carries eight accumulators. From the row's current activities `a`, its pre-activities `p`, its input `x` and a
  noise draw `z` the step computes

    active   = 1 if every |a k| is below the threshold 1, else 0
    recur    = the row sum of a · Γ, where Γ has 0 on its diagonal and the competition weight off it
    pre'     = p + ((x − leak · p) + recur) · active · dt  +  z · (active · 1) · √dt
    act'     = max (pre', 0)

  on the extended reals, every literal the exact value of its binary word. Nothing here mentions a program: the two
  programs are each shown to compute these row functions, and only the two readings of `active` differ between them — as a
  minimum of 0/1 flags that is positive, and as a conjunction of the flags.
-/
import Idealize.ShloMosaic.PureOps.Ideal.Laws
import Idealize.ShloMosaic.Lib.ValueIdx

noncomputable section

open scoped BigOperators
open Idealize.ShloMosaic Idealize.ShloMosaic.ValueIdx

namespace Cert.Lca

/-- Row `r` of a matrix with eight columns. -/
def rowAt {n : Nat} (x : (⟨2, ![n, 8]⟩ : Shape).Idx → EReal) (r : Fin n) : Fin 8 → EReal := fun k => x (ix2 r k)

/-- The threshold flag of one accumulator, as a bit: |v| < 1. -/
def flag (v : EReal) : BitVec 1 := Ideal.cmp .olt (max v (-v)) (Ideal.ofBits .f32 0x3F800000#32)

/-- Every accumulator of the row is below the threshold. -/
def below (a : Fin 8 → EReal) : Prop := ∀ k : Fin 8, max (a k) (-(a k)) < Ideal.ofBits .f32 0x3F800000#32

open scoped Classical in
/-- The row is still active: 1 if all its accumulators are below the threshold, else 0. -/
def mask (a : Fin 8 → EReal) : EReal := if below a then 1 else 0

/-- The competition matrix: nothing on the diagonal, the (negative) competition weight elsewhere. -/
def gam (k c : Fin 8) : EReal := if k = c then Ideal.ofBits .f32 0x00000000#32 else Ideal.ofBits .f32 0xBDCCCCCD#32

/-- The recurrent drive of a row: the sum over the columns of a · Γ. -/
def recur (a : Fin 8 → EReal) : EReal := ∑ c : Fin 8, ∑ k : Fin 8, a k * gam k c

/-- The new pre-activity of accumulator `q`. -/
def preRow (x p a z : Fin 8 → EReal) (q : Fin 8) : EReal :=
  (p q + ((x q - Ideal.ofBits .f32 0x3DCCCCCD#32 * p q) + recur a) * mask a * Ideal.ofBits .f32 0x3C23D70A#32)
    + z q * (mask a * Ideal.ofBits .f32 0x3F800000#32) * Ideal.ofBits .f32 0x3D0186E2#32

/-- The new activity of accumulator `q`: the new pre-activity, rectified. -/
def actRow (x p a z : Fin 8 → EReal) (q : Fin 8) : EReal :=
  max (preRow x p a z q) (Ideal.ofBits .f32 0x00000000#32)

/-! ## The step on whole arrays: every row on its own -/

/-- The new pre-activities of an array of `n` rows. -/
def wholePre {n : Nat} (x p a z : (⟨2, ![n, 8]⟩ : Shape).Idx → EReal) : (⟨2, ![n, 8]⟩ : Shape).Idx → EReal :=
  fun i => preRow (rowAt x (i 0)) (rowAt p (i 0)) (rowAt a (i 0)) (rowAt z (i 0)) (i 1)

/-- The new activities. -/
def wholeAct {n : Nat} (x p a z : (⟨2, ![n, 8]⟩ : Shape).Idx → EReal) : (⟨2, ![n, 8]⟩ : Shape).Idx → EReal :=
  fun i => actRow (rowAt x (i 0)) (rowAt p (i 0)) (rowAt a (i 0)) (rowAt z (i 0)) (i 1)

/-- The mask, one entry per row. -/
def wholeMask {n : Nat} (a : (⟨2, ![n, 8]⟩ : Shape).Idx → EReal) : (⟨2, ![n, 1]⟩ : Shape).Idx → EReal :=
  fun i => mask (rowAt a (i 0))

theorem wholePre_apply {n : Nat} (x p a z : (⟨2, ![n, 8]⟩ : Shape).Idx → EReal) (r : Fin n) (q : Fin 8) :
    wholePre x p a z (ix2 r q) = preRow (rowAt x r) (rowAt p r) (rowAt a r) (rowAt z r) q := rfl
theorem wholeAct_apply {n : Nat} (x p a z : (⟨2, ![n, 8]⟩ : Shape).Idx → EReal) (r : Fin n) (q : Fin 8) :
    wholeAct x p a z (ix2 r q) = actRow (rowAt x r) (rowAt p r) (rowAt a r) (rowAt z r) q := rfl
theorem wholeMask_apply {n : Nat} (a : (⟨2, ![n, 8]⟩ : Shape).Idx → EReal) (r : Fin n) (u : Fin 1) :
    wholeMask a (ix2 r u) = mask (rowAt a r) := rfl

/-! ## The literals that the mask compares -/

theorem lit_one : Ideal.ofBits .f32 0x3F800000#32 = 1 := IdealRules.sign_bit.ideal_onePat .f32
theorem lit_zero : Ideal.ofBits .f32 0x00000000#32 = 0 := Ideal.ofBits_zero_f32
theorem lit_top : Ideal.ofBits .f32 0x7F800000#32 = ⊤ := by simp [Ideal.ofBits, Ideal.ieee]

/-! ## Comparisons and selections as `if`s -/

theorem cmp_olt (x y : EReal) : Ideal.cmp .olt x y = if x < y then 1#1 else 0#1 := by
  unfold Ideal.cmp
  by_cases h : x < y <;> simp [h]

theorem cmp_ogt (x y : EReal) : Ideal.cmp .ogt x y = if y < x then 1#1 else 0#1 := by
  unfold Ideal.cmp
  by_cases h : y < x <;> simp [h]

theorem flag_eq_one (v : EReal) : flag v = 1#1 ↔ max v (-v) < Ideal.ofBits .f32 0x3F800000#32 := by
  unfold flag
  rw [cmp_olt]
  by_cases h : max v (-v) < Ideal.ofBits .f32 0x3F800000#32
  · rw [if_pos h]; exact ⟨fun _ => h, fun _ => rfl⟩
  · rw [if_neg h]; exact ⟨fun e => absurd e (by decide), fun e => absurd e h⟩

/-- The 0/1 flag as a number: 1 where the accumulator is below the threshold, 0 elsewhere. -/
def flagVal (v : EReal) : EReal :=
  Scalar.select (flag v) (Ideal.ofBits .f32 0x3F800000#32 : EReal) (Ideal.ofBits .f32 0x00000000#32)

theorem zero_lt_flagVal (v : EReal) :
    Ideal.ofBits .f32 0x00000000#32 < flagVal v ↔ max v (-v) < Ideal.ofBits .f32 0x3F800000#32 := by
  unfold flagVal
  by_cases h : flag v = 1#1
  · rw [h, select_one]
    have h01 : Ideal.ofBits .f32 0x00000000#32 < Ideal.ofBits .f32 0x3F800000#32 := by
      rw [lit_zero, lit_one]; exact zero_lt_one
    exact ⟨fun _ => (flag_eq_one v).1 h, fun _ => h01⟩
  · rw [eq_zero_of_ne_one h, select_zero]
    exact ⟨fun e => absurd e (lt_irrefl _), fun e => absurd ((flag_eq_one v).2 e) h⟩

/-! ## The two readings of the mask -/

/-- As the kernel reads it: a value `m` that is positive exactly when every 0/1 flag is (the minimum of the flags over
    the row, from +∞), compared with 0, the bit widened and converted as a signed integer. -/
theorem mask_of_min (a : Fin 8 → EReal) (m : EReal)
    (hm : Ideal.ofBits .f32 0x00000000#32 < m ↔ ∀ k : Fin 8, Ideal.ofBits .f32 0x00000000#32 < flagVal (a k)) :
    ((((Ideal.cmp .ogt m (Ideal.ofBits .f32 0x00000000#32)).setWidth 32).toInt : ℝ) : EReal) = mask a := by
  have hb : Ideal.ofBits .f32 0x00000000#32 < m ↔ below a :=
    hm.trans (forall_congr' fun k => zero_lt_flagVal (a k))
  unfold mask
  rw [cmp_ogt]
  by_cases h : below a
  · rw [if_pos h, if_pos (hb.2 h)]
    have e : ((1#1 : BitVec 1).setWidth 32).toInt = 1 := by decide
    rw [e]; norm_num
  · rw [if_neg h, if_neg (fun e => h (hb.1 e))]
    have e : ((0#1 : BitVec 1).setWidth 32).toInt = 0 := by decide
    rw [e]; norm_num

/-- As the reference reads it: a bit `b` that is set exactly when every flag is (the conjunction of the flags over the
    row), converted as an unsigned integer. -/
theorem mask_of_and (a : Fin 8 → EReal) (b : BitVec 1) (hb : b = 1#1 ↔ ∀ k : Fin 8, flag (a k) = 1#1) :
    (((b.toNat : ℝ) : EReal)) = mask a := by
  have hb' : b = 1#1 ↔ below a := hb.trans (forall_congr' fun k => flag_eq_one (a k))
  unfold mask
  by_cases h : below a
  · rw [if_pos h, hb'.2 h]
    have e : (1#1 : BitVec 1).toNat = 1 := by decide
    rw [e]; norm_num
  · rw [if_neg h]
    have e0 : b = 0#1 := eq_zero_of_ne_one (fun e => h (hb'.1 e))
    rw [e0]
    have e : (0#1 : BitVec 1).toNat = 0 := by decide
    rw [e]; norm_num

/-- A conjunction over a finite set, folded from 1, is 1 exactly when every conjunct is. -/
theorem fold_andi_eq_one {ι : Type} (s : Finset ι) (g : ι → BitVec 1) :
    s.fold IntOp.andi 1#1 g = 1#1 ↔ ∀ k ∈ s, g k = 1#1 := by
  have h := Finset.fold_op_rel_iff_and (op := IntOp.andi (w := 1)) (r := fun _ y => y = 1#1) (s := s) (b := 1#1) (f := g)
    (fun {x y z} => by revert y z; decide) (c := 1#1)
  exact h.trans ⟨fun e => e.2, fun e => ⟨rfl, e⟩⟩

/-! ## The competition matrix from two coordinate grids -/

/-- Two coordinates below 8, compared as 32-bit words, are equal words exactly when they are equal. -/
theorem cmpi_eq_coords (k c : Fin 8) :
    IntOp.cmpi .eq (BitVec.ofNat 32 k.val) (BitVec.ofNat 32 c.val) = if k = c then 1#1 else 0#1 := by
  revert k c; decide

/-- Selecting 0 on the diagonal and the weight off it is the competition matrix. -/
theorem select_coords (k c : Fin 8) :
    Scalar.select (IntOp.cmpi .eq (BitVec.ofNat 32 k.val) (BitVec.ofNat 32 c.val))
      (Ideal.ofBits .f32 0x00000000#32 : EReal) (Ideal.ofBits .f32 0xBDCCCCCD#32) = gam k c := by
  rw [cmpi_eq_coords]
  unfold gam
  by_cases h : k = c
  · rw [if_pos h, if_pos h, select_one]
  · rw [if_neg h, if_neg h, select_zero]

end Cert.Lca

end
-- ==== Proof.LibColumn.lean ====
/-
  Column forms of the layout operations, read at an index. A row reduction that keeps its axis
  (`sum(axis = -1, keepdims = True)`) produces a vector of shape `[a]` that is recast to the column `[a, 1]`
  and then repeated along the second axis to `[a, b]`. Both steps move no data: entry `(i, u)` of the column is
  entry `i` of the vector, and entry `(p, c)` of the repeated column is entry `(p, 0)` of the column.
-/
import Idealize.ShloMosaic.Lib.Pipeline.Value
import Idealize.ShloMosaic.Lib.ValueIdx

namespace Cert.Lib.Column

open Idealize.ShloMosaic Idealize.ShloMosaic.ValueIdx

variable {α : Type}

/-- An `[a]` array cast to the column `[a, 1]` reads, at `(i, u)`, the operand at `i`: both indices sit at
    row-major position `i`, the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Column
-- ==== Proof.LibMatmulPlain.lean ====
/-
  A plain matrix product read at an entry. For dimension numbers that contract the left operand's axis 1 with the right
  operand's axis 0 and have no batch axis, the product of an [A, K] and a [K, B] array accumulated into the zero splat
  has, at `(p, q)`, the value `∑ k, lhs (p, k) * rhs (k, q)` on the extended reals; for any sizes A, K, B and any two
  float formats of the operands (a change of format is the identity on the extended reals).
-/
import Idealize.ShloMosaic.PureOps.Ideal.Laws
import Idealize.ShloMosaic.Lib.ValueIdx

noncomputable section

open scoped BigOperators
open Idealize.ShloMosaic Idealize.ShloMosaic.ValueIdx

namespace MatmulPlain

/-- The matrix product into a zero accumulator at entry `(p, q)`. -/
theorem matmul_zero_apply {A K B : Nat} {φ₁ φ₂ : FTy}
    (d : DotDims ⟨2, ![A, K]⟩ ⟨2, ![K, B]⟩ ⟨2, ![A, B]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision)
    (lhs : FVec Ideal ⟨2, ![A, K]⟩ φ₁) (rhs : FVec Ideal ⟨2, ![K, B]⟩ φ₂) (p : Fin A) (q : Fin B) :
    matmul d prec lhs rhs (constant ⟨2, ![A, B]⟩ .f32 0x00000000#32) (ix2 p q)
      = ∑ k : Fin K, lhs (ix2 p k) * rhs (ix2 k q) := by
  obtain ⟨lc, rc, ln, rn, lb, rb, wf⟩ := d
  simp only at hlc hrc hln hrn hlb hrb
  subst hlc hrc hln hrn hlb hrb
  let D : DotDims ⟨2, ![A, K]⟩ ⟨2, ![K, B]⟩ ⟨2, ![A, B]⟩ := ⟨[1], [0], [0], [1], [], [], wf⟩
  refine (Ideal.matmul_constant_zero_apply D prec lhs rhs (ix2 p q)).trans ?_
  rw [← Equiv.sum_comp (contrEquiv1 D K rfl rfl).symm]
  refine Finset.sum_congr rfl fun k _ => ?_
  have hk := contrEquiv1_symm_val D K rfl rfl k
  have l0 : (D.lhsIdx (ix2 p q) ((contrEquiv1 D K rfl rfl).symm k) (0 : Fin 2)).val = p.val := by
    unfold DotDims.lhsIdx
    rw [dif_neg (show ¬(0 : Fin 2) ∈ ([] : List (Fin 2)) from List.not_mem_nil),
      dif_pos (show (0 : Fin 2) ∈ ([0] : List (Fin 2)) from List.mem_singleton.mpr rfl)]
    rfl
  have l1 : (D.lhsIdx (ix2 p q) ((contrEquiv1 D K rfl rfl).symm k) (1 : Fin 2)).val = k.val :=
    (D.lhsIdx_val_of_single rfl (ix2 p q) _).trans hk
  have r0 : (D.rhsIdx (ix2 p q) ((contrEquiv1 D K rfl rfl).symm k) (0 : Fin 2)).val = k.val :=
    (D.rhsIdx_val_of_single rfl (ix2 p q) _).trans hk
  have r1 : (D.rhsIdx (ix2 p q) ((contrEquiv1 D K rfl rfl).symm k) (1 : Fin 2)).val = q.val := by
    unfold DotDims.rhsIdx
    rw [dif_neg (show ¬(1 : Fin 2) ∈ ([] : List (Fin 2)) from List.not_mem_nil),
      dif_pos (show (1 : Fin 2) ∈ ([1] : List (Fin 2)) from List.mem_singleton.mpr rfl)]
    rfl
  have el : D.lhsIdx (ix2 p q) ((contrEquiv1 D K rfl rfl).symm k) = ix2 p k := funext fun a => Fin.ext (by
    match a with
    | ⟨0, _⟩ => exact l0
    | ⟨1, _⟩ => exact l1)
  have er : D.rhsIdx (ix2 p q) ((contrEquiv1 D K rfl rfl).symm k) = ix2 k q := funext fun a => Fin.ext (by
    match a with
    | ⟨0, _⟩ => exact r0
    | ⟨1, _⟩ => exact r1)
  rw [el, er]

end MatmulPlain

end
-- ==== Proof.KernelRows.lean ====
/-
  The kernel's body, read one entry at a time. The body works on a block of 2000 rows; every row is treated on its own.
  Entry (p, q) of what it stores is the row function of row p of the four input blocks:

    the mask column    — the minimum over the row of the 0/1 threshold flags, compared with 0 — is `mask` of the row;
    the drive column   — the row sum of (activities × Γ), Γ selected from two coordinate grids — is `recur` of the row;
    the stored blocks  — the pointwise arithmetic around those two columns — are `preRow` and `actRow`.

  A minimum of flags is positive exactly when every flag is; a sum over a row of a product is the double sum.
-/
import proofs.«166206_j27771258536509_2_alg».proof.Proof.Gen.KernelIdeal.Skeleton
import proofs.«166206_j27771258536509_2_alg».proof.Proof.LcaRow
import proofs.«166206_j27771258536509_2_alg».proof.Proof.LibColumn
import proofs.«166206_j27771258536509_2_alg».proof.Proof.LibMatmulPlain
import Idealize.ShloMosaic.Lib.Pipeline.Value
import Idealize.ShloMosaic.PureOps.Ideal.Laws

noncomputable section

open scoped BigOperators
open Idealize.ShloMosaic Idealize.ShloMosaic.ValueIdx

namespace Cert.KernelIdeal.Rows

open Cert.KernelIdeal Cert.KernelIdeal.Gen Cert.Lca

/-! ## A row of the block under the two row reductions -/

/-- Putting column `k` back into the reduced index `p` names entry (p, k). -/
theorem lift_row (p : Fin 2000) (k : Fin (S2000x8.size 1)) :
    reduces_S2000x8_S2000.lift (ix1 p) k = ix2 p (⟨k.val, k.isLt⟩ : Fin 8) := by
  funext c; apply Fin.ext
  fin_cases c <;> rfl

/-- A row sum from 0 is the sum of the row's eight entries. -/
theorem sum_row (src : FVec Ideal S2000x8 .f32) (p : Fin 2000) :
    multiReduction .add [1] S2000 src 0x00000000#32 reduces_S2000x8_S2000 (.inl rfl) rfl (ix1 p)
      = ∑ k : Fin 8, src (ix2 p k) := by
  refine (Ideal.multiReduction_add_single src _ reduces_S2000x8_S2000 _ _ (ix1 p)).trans ?_
  exact Finset.sum_congr rfl fun k _ => congrArg src (lift_row p k)

/-- A row minimum from +∞ lies above `c` exactly when +∞ and each of the row's eight entries do. -/
theorem lt_min_row (src : FVec Ideal S2000x8 .f32) (p : Fin 2000) (c : EReal) :
    c < multiReduction .minimumf [1] S2000 src 0x7F800000#32 reduces_S2000x8_S2000 (.inl rfl) rfl (ix1 p)
      ↔ c < Ideal.ofBits .f32 0x7F800000#32 ∧ ∀ k : Fin 8, c < src (ix2 p k) := by
  have e := (multiReduction_minimumf_eq_fold (F := Ideal) src 0x7F800000#32 reduces_S2000x8_S2000 (.inl rfl) rfl (ix1 p)).trans
    (reduces_S2000x8_S2000.fold_filter_drop_single FloatOps.minimumf _ src (ix1 p))
  refine (Eq.to_iff (congrArg (fun z => c < z) e)).trans ?_
  show c < Finset.fold min (Ideal.ofBits .f32 0x7F800000#32) (src ∘ reduces_S2000x8_S2000.lift (ix1 p)) Finset.univ ↔ _
  rw [Finset.lt_fold_min]
  constructor
  · rintro ⟨h1, h2⟩
    refine ⟨h1, fun k => ?_⟩
    have e : c < src (reduces_S2000x8_S2000.lift (ix1 p) k) := h2 k (Finset.mem_univ _)
    rw [lift_row p k] at e
    exact e
  · rintro ⟨h1, h2⟩
    refine ⟨h1, fun k _ => ?_⟩
    show c < src (reduces_S2000x8_S2000.lift (ix1 p) k)
    rw [lift_row p k]
    exact h2 _

/-! ## The mask column -/

/-- The 0/1 threshold flags of a block. -/
def flagsVec (v0 : FVec Ideal S2000x8 .f32) : FVec Ideal S2000x8 .f32 :=
  select (cmpf .olt (absf v0) (broadcast S2000x8 (Scalar.ofBits .f32 0x3F800000#32)))
    (broadcast S2000x8 (Scalar.ofBits .f32 0x3F800000#32)) (broadcast S2000x8 (Scalar.ofBits .f32 0x00000000#32))

/-- Their minimum over each row. -/
def minVec (v0 : FVec Ideal S2000x8 .f32) : FVec Ideal S2000 .f32 :=
  multiReduction .minimumf [1] S2000 (flagsVec v0) 0x7F800000#32 reduces_S2000x8_S2000 (.inl rfl) rfl

/-- The mask column is built from that minimum: compared with 0, recast to a column, widened, converted. -/
theorem pay3_eq (v0 : FVec Ideal S2000x8 .f32) :
    k0_pay3 (F := Ideal) v0 = sitofp .f32 (extui 32 (shapeCast S2000x1 (cmpf .ogt (minVec v0)
      (broadcast S2000 (Scalar.ofBits .f32 0x00000000#32))) shapeCasts_S2000_S2000x1) natLt_1_32) := rfl

/-- Entry (p, ·) of the mask column is the mask of row p. -/
theorem active_apply (v0 : FVec Ideal S2000x8 .f32) (p : Fin 2000) (u : Fin 1) :
    k0_pay3 (F := Ideal) v0 (ix2 p u) = mask (rowAt v0 p) := by
  rw [pay3_eq]
  show FloatOps.sitofp .f32 ((shapeCast S2000x1 (cmpf .ogt (minVec v0)
    (broadcast S2000 (Scalar.ofBits .f32 0x00000000#32))) shapeCasts_S2000_S2000x1 (ix2 p u)).setWidth 32) = _
  rw [Cert.Lib.Column.shapeCast_a_a1_apply]
  refine mask_of_min (rowAt v0 p) (minVec v0 (ix1 p)) ?_
  refine (lt_min_row (flagsVec v0) p _).trans ⟨fun h => h.2, fun h => ⟨?_, h⟩⟩
  rw [lit_zero, lit_top]
  exact EReal.zero_lt_top

/-! ## The drive column -/

/-- Γ as the body builds it: two coordinate grids compared, 0 where they agree, the weight elsewhere. -/
def gammaVec : FVec Ideal S8x8 .f32 :=
  select (cmpi .eq (iota .tc S8x8 32 [0] iota_S8x8_d0_w32) (iota .tc S8x8 32 [1] iota_S8x8_d1_w32))
    (broadcast S8x8 (Scalar.ofBits .f32 0x00000000#32)) (broadcast S8x8 (Scalar.ofBits .f32 0xBDCCCCCD#32))

theorem gamma_apply (k c : Fin 8) : gammaVec (ix2 k c) = gam k c := by
  show Scalar.select (IntOp.cmpi .eq (iota .tc S8x8 32 [0] iota_S8x8_d0_w32 (ix2 k c))
    (iota .tc S8x8 32 [1] iota_S8x8_d1_w32 (ix2 k c))) _ _ = _
  rw [iota_single_apply, iota_single_apply]
  exact select_coords k c

/-- The row sums of activities × Γ. -/
def recurVec (v0 : FVec Ideal S2000x8 .f32) : FVec Ideal S2000 .f32 :=
  multiReduction .add [1] S2000
    (matmul dot_S2000x8_S8x8_S2000x8_1_0_0_1_n_n none v0 gammaVec (constant S2000x8 .f32 0x00000000#32))
    0x00000000#32 reduces_S2000x8_S2000 (.inl rfl) rfl

theorem recur_apply (v0 : FVec Ideal S2000x8 .f32) (p : Fin 2000) : recurVec v0 (ix1 p) = recur (rowAt v0 p) := by
  unfold recurVec recur
  refine (sum_row _ p).trans (Finset.sum_congr rfl fun c _ => ?_)
  refine (MatmulPlain.matmul_zero_apply dot_S2000x8_S8x8_S2000x8_1_0_0_1_n_n rfl rfl rfl rfl rfl rfl none v0 gammaVec p c).trans ?_
  exact Finset.sum_congr rfl fun k _ => by rw [gamma_apply]; rfl

/-! ## The stored blocks -/

/-- The first update, as the tree of block operations around the two columns. -/
theorem pay4_eq (v0 v1 v2 : FVec Ideal S2000x8 .f32) :
    k0_pay4 (F := Ideal) v0 v1 v2 = addf v1 (mulf (mulf (addf (subf v2 (mulf (broadcast S2000x8 (Scalar.ofBits .f32 0x3DCCCCCD#32)) v1))
      (broadcastTo S2000x8 (shapeCast S2000x1 (recurVec v0) shapeCasts_S2000_S2000x1) broadcasts_S2000x1_S2000x8))
      (broadcastTo S2000x8 (k0_pay3 (F := Ideal) v0) broadcasts_S2000x1_S2000x8))
      (broadcast S2000x8 (Scalar.ofBits .f32 0x3C23D70A#32))) := rfl

theorem pay4_apply (v0 v1 v2 : FVec Ideal S2000x8 .f32) (p : Fin 2000) (q : Fin 8) :
    k0_pay4 (F := Ideal) v0 v1 v2 (ix2 p q)
      = v1 (ix2 p q) + ((v2 (ix2 p q) - Ideal.ofBits .f32 0x3DCCCCCD#32 * v1 (ix2 p q)) + recur (rowAt v0 p))
          * mask (rowAt v0 p) * Ideal.ofBits .f32 0x3C23D70A#32 := by
  rw [pay4_eq]
  show v1 (ix2 p q) + ((v2 (ix2 p q) - Ideal.ofBits .f32 0x3DCCCCCD#32 * v1 (ix2 p q))
      + broadcastTo S2000x8 (shapeCast S2000x1 (recurVec v0) shapeCasts_S2000_S2000x1) broadcasts_S2000x1_S2000x8 (ix2 p q))
      * broadcastTo S2000x8 (k0_pay3 (F := Ideal) v0) broadcasts_S2000x1_S2000x8 (ix2 p q) * Ideal.ofBits .f32 0x3C23D70A#32 = _
  rw [Cert.Lib.Column.broadcastTo_a1_ab_apply, Cert.Lib.Column.broadcastTo_a1_ab_apply,
    Cert.Lib.Column.shapeCast_a_a1_apply, recur_apply, active_apply]

/-- The noise term before its scale: the noise times the mask column times 1. -/
theorem pay5_apply (v0 v3 : FVec Ideal S2000x8 .f32) (p : Fin 2000) (q : Fin 8) :
    k0_pay5 (F := Ideal) v0 v3 (ix2 p q) = v3 (ix2 p q) * (mask (rowAt v0 p) * Ideal.ofBits .f32 0x3F800000#32) := by
  show v3 (ix2 p q) * broadcastTo S2000x8 (mulf (k0_pay3 (F := Ideal) v0) (broadcast S2000x1 (Scalar.ofBits .f32 0x3F800000#32)))
    broadcasts_S2000x1_S2000x8 (ix2 p q) = _
  rw [Cert.Lib.Column.broadcastTo_a1_ab_apply]
  show v3 (ix2 p q) * (k0_pay3 (F := Ideal) v0 (ix2 p (0 : Fin 1)) * Ideal.ofBits .f32 0x3F800000#32) = _
  rw [active_apply]

/-- Entry (p, q) of the stored pre-activity block: `x0` the input block, `x1` the pre-activities, `x2` the activities,
    `x3` the noise. -/
theorem pre_apply (x0 x1 x2 x3 : FVec Ideal S2000x8 .f32) (p : Fin 2000) (q : Fin 8) :
    k0_pay1 (F := Ideal) (k0_pay4 (F := Ideal) x2 x1 x0) (k0_pay5 (F := Ideal) x2 x3) (ix2 p q)
      = preRow (rowAt x0 p) (rowAt x1 p) (rowAt x2 p) (rowAt x3 p) q := by
  show k0_pay4 (F := Ideal) x2 x1 x0 (ix2 p q) + k0_pay5 (F := Ideal) x2 x3 (ix2 p q) * Ideal.ofBits .f32 0x3D0186E2#32 = _
  rw [pay4_apply, pay5_apply]
  rfl

/-- Entry (p, q) of the stored activity block. -/
theorem act_apply (x0 x1 x2 x3 : FVec Ideal S2000x8 .f32) (p : Fin 2000) (q : Fin 8) :
    k0_pay2 (F := Ideal) (k0_pay4 (F := Ideal) x2 x1 x0) (k0_pay5 (F := Ideal) x2 x3) (ix2 p q)
      = actRow (rowAt x0 p) (rowAt x1 p) (rowAt x2 p) (rowAt x3 p) q := by
  show max (k0_pay1 (F := Ideal) (k0_pay4 (F := Ideal) x2 x1 x0) (k0_pay5 (F := Ideal) x2 x3) (ix2 p q)) (Ideal.ofBits .f32 0x00000000#32) = _
  rw [pre_apply]
  rfl

end Cert.KernelIdeal.Rows

end
-- ==== Proof.KernelArrays.lean ====
/-
  From blocks to arrays. The grid has 1000 points; point `t` reads rows 2000·t … 2000·t + 1999 of each of the four
  arguments and writes back the same rows of each of the three results. Since the body treats every row on its own, what
  point `t` writes back is block `t` of ONE function of the whole argument arrays — the step applied row by row —, and since
  the blocks tile each result (row r lies in block r / 2000), each result ends as that function of the arguments.
-/
import proofs.«166206_j27771258536509_2_alg».proof.Proof.Gen.KernelIdeal.Frame
import proofs.«166206_j27771258536509_2_alg».proof.Proof.KernelRows
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.KernelIdeal.Arrays

open Cert.KernelIdeal Cert.KernelIdeal.Gen Cert.Lca

variable (m : (ℓ : Loc nD τ sig) → Buf (Elt Ideal) ℓ) (ρ : Dev nD → PrngReg)

theorem hz : (![0, 0] : Fin 2 → Nat) = fun _ => 0 := funext fun a => by fin_cases a <;> rfl

/-! ## The index maps, decided over the grid: every window's block index at point `t` is (t, 0) -/

theorem idx0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx2 : ∀ t : Fin cfg0.N, win0_2.index t (0 : Fin 2) = t.val ∧ win0_2.index t (1 : Fin 2) = 0 :=
  (by decide +kernel : ∀ t : Fin grid0.N, win0_2.index t (0 : Fin 2) = t.val ∧ win0_2.index t (1 : Fin 2) = 0)
theorem idx3 : ∀ t : Fin cfg0.N, win0_3.index t (0 : Fin 2) = t.val ∧ win0_3.index t (1 : Fin 2) = 0 :=
  (by decide +kernel : ∀ t : Fin grid0.N, win0_3.index t (0 : Fin 2) = t.val ∧ win0_3.index t (1 : Fin 2) = 0)
theorem idx4 : ∀ t : Fin cfg0.N, win0_4.index t (0 : Fin 2) = t.val ∧ win0_4.index t (1 : Fin 2) = 0 :=
  (by decide +kernel : ∀ t : Fin grid0.N, win0_4.index t (0 : Fin 2) = t.val ∧ win0_4.index t (1 : Fin 2) = 0)
theorem idx5 : ∀ t : Fin cfg0.N, win0_5.index t (0 : Fin 2) = t.val ∧ win0_5.index t (1 : Fin 2) = 0 :=
  (by decide +kernel : ∀ t : Fin grid0.N, win0_5.index t (0 : Fin 2) = t.val ∧ win0_5.index t (1 : Fin 2) = 0)
theorem idx6 : ∀ t : Fin cfg0.N, win0_6.index t (0 : Fin 2) = t.val ∧ win0_6.index t (1 : Fin 2) = 0 :=
  (by decide +kernel : ∀ t : Fin grid0.N, win0_6.index t (0 : Fin 2) = t.val ∧ win0_6.index t (1 : Fin 2) = 0)

/-! ## The input blocks as rows of the arguments -/

/-- Input block 0 at point `t` is rows 2000·t … 2000·t + 1999 of argument 0. -/
theorem iblk0_apply (c : Dev nD) (t : Fin cfg0.N) (y : S2000x8.Idx) (k : S2000000x8.Idx)
    (hk0 : (k 0).val = 2000 * t.val + (y 0).val) (hk1 : (k 1).val = (y 1).val) :
    (iblk m c 0 t : Vec Ideal S2000x8 .f32) y = (V m c main_arg0 : S2000000x8.Idx → Elt Ideal .f32) k := by
  unfold iblk
  rw [View.read_apply]
  show V m c main_arg0 _ = V m c main_arg0 _
  congr 1
  funext a
  apply Fin.ext
  match a with
  | ⟨0, _⟩ => show win0_0.index t (0 : Fin 2) * 2000 + 1 * (y 0).val = (k 0).val; rw [(idx0 t).1, hk0]; omega
  | ⟨1, _⟩ => show win0_0.index t (1 : Fin 2) * 8 + 1 * (y 1).val = (k 1).val; rw [(idx0 t).2, hk1]; omega

/-- Input block 1 at point `t` is rows 2000·t … 2000·t + 1999 of argument 1. -/
theorem iblk1_apply (c : Dev nD) (t : Fin cfg0.N) (y : S2000x8.Idx) (k : S2000000x8.Idx)
    (hk0 : (k 0).val = 2000 * t.val + (y 0).val) (hk1 : (k 1).val = (y 1).val) :
    (iblk m c 1 t : Vec Ideal S2000x8 .f32) y = (V m c main_arg1 : S2000000x8.Idx → Elt Ideal .f32) k := by
  unfold iblk
  rw [View.read_apply]
  show V m c main_arg1 _ = V m c main_arg1 _
  congr 1
  funext a
  apply Fin.ext
  match a with
  | ⟨0, _⟩ => show win0_1.index t (0 : Fin 2) * 2000 + 1 * (y 0).val = (k 0).val; rw [(idx1 t).1, hk0]; omega
  | ⟨1, _⟩ => show win0_1.index t (1 : Fin 2) * 8 + 1 * (y 1).val = (k 1).val; rw [(idx1 t).2, hk1]; omega

/-- Input block 2 at point `t` is rows 2000·t … 2000·t + 1999 of argument 2. -/
theorem iblk2_apply (c : Dev nD) (t : Fin cfg0.N) (y : S2000x8.Idx) (k : S2000000x8.Idx)
    (hk0 : (k 0).val = 2000 * t.val + (y 0).val) (hk1 : (k 1).val = (y 1).val) :
    (iblk m c 2 t : Vec Ideal S2000x8 .f32) y = (V m c main_arg2 : S2000000x8.Idx → Elt Ideal .f32) k := by
  unfold iblk
  rw [View.read_apply]
  show V m c main_arg2 _ = V m c main_arg2 _
  congr 1
  funext a
  apply Fin.ext
  match a with
  | ⟨0, _⟩ => show win0_2.index t (0 : Fin 2) * 2000 + 1 * (y 0).val = (k 0).val; rw [(idx2 t).1, hk0]; omega
  | ⟨1, _⟩ => show win0_2.index t (1 : Fin 2) * 8 + 1 * (y 1).val = (k 1).val; rw [(idx2 t).2, hk1]; omega

/-- Input block 3 at point `t` is rows 2000·t … 2000·t + 1999 of argument 3. -/
theorem iblk3_apply (c : Dev nD) (t : Fin cfg0.N) (y : S2000x8.Idx) (k : S2000000x8.Idx)
    (hk0 : (k 0).val = 2000 * t.val + (y 0).val) (hk1 : (k 1).val = (y 1).val) :
    (iblk m c 3 t : Vec Ideal S2000x8 .f32) y = (V m c main_arg3 : S2000000x8.Idx → Elt Ideal .f32) k := by
  unfold iblk
  rw [View.read_apply]
  show V m c main_arg3 _ = V m c main_arg3 _
  congr 1
  funext a
  apply Fin.ext
  match a with
  | ⟨0, _⟩ => show win0_3.index t (0 : Fin 2) * 2000 + 1 * (y 0).val = (k 0).val; rw [(idx3 t).1, hk0]; omega
  | ⟨1, _⟩ => show win0_3.index t (1 : Fin 2) * 8 + 1 * (y 1).val = (k 1).val; rw [(idx3 t).2, hk1]; omega

/-! ## A block of rows under the row functions -/

/-- Row `p` of a block that holds rows 2000·t … of an array is row 2000·t + p of the array. -/
theorem rowAt_block (x : FVec Ideal S2000x8 .f32) (A : S2000000x8.Idx → EReal) (t : Nat)
    (hx : ∀ (y : S2000x8.Idx) (k : S2000000x8.Idx), (k 0).val = 2000 * t + (y 0).val → (k 1).val = (y 1).val → x y = A k)
    (p : Fin 2000) (r : Fin 2000000) (hr : r.val = 2000 * t + p.val) : rowAt x p = rowAt A r :=
  funext fun k => hx (ix2 p k) (ix2 r k) hr rfl

/-- The pre-activity block stored at a point whose input blocks are rows 2000·t … of the arrays `A0 … A3`, at a block
    index and at the array index above it. -/
theorem block_pre (x0 x1 x2 x3 : FVec Ideal S2000x8 .f32) (A0 A1 A2 A3 : S2000000x8.Idx → EReal) (t : Nat)
    (h0 : ∀ (y : S2000x8.Idx) (k : S2000000x8.Idx), (k 0).val = 2000 * t + (y 0).val → (k 1).val = (y 1).val → x0 y = A0 k)
    (h1 : ∀ (y : S2000x8.Idx) (k : S2000000x8.Idx), (k 0).val = 2000 * t + (y 0).val → (k 1).val = (y 1).val → x1 y = A1 k)
    (h2 : ∀ (y : S2000x8.Idx) (k : S2000000x8.Idx), (k 0).val = 2000 * t + (y 0).val → (k 1).val = (y 1).val → x2 y = A2 k)
    (h3 : ∀ (y : S2000x8.Idx) (k : S2000000x8.Idx), (k 0).val = 2000 * t + (y 0).val → (k 1).val = (y 1).val → x3 y = A3 k)
    (y : S2000x8.Idx) (i : S2000000x8.Idx) (hi0 : (i 0).val = 2000 * t + (y 0).val) (hi1 : (i 1).val = (y 1).val) :
    k0_pay1 (F := Ideal) (k0_pay4 (F := Ideal) x2 x1 x0) (k0_pay5 (F := Ideal) x2 x3) y = wholePre (n := 2000000) A0 A1 A2 A3 i := by
  obtain ⟨p, q, rfl⟩ : ∃ (p : Fin 2000) (q : Fin 8), y = ix2 p q := ⟨y 0, y 1, eq_ix2 y⟩
  obtain ⟨r, q', rfl⟩ : ∃ (r : Fin 2000000) (q' : Fin 8), i = ix2 r q' := ⟨i 0, i 1, eq_ix2 i⟩
  obtain rfl : q' = q := Fin.ext hi1
  rw [Rows.pre_apply, wholePre_apply, rowAt_block x0 A0 t h0 p r hi0, rowAt_block x1 A1 t h1 p r hi0,
    rowAt_block x2 A2 t h2 p r hi0, rowAt_block x3 A3 t h3 p r hi0]

/-- The same for the activity block. -/
theorem block_act (x0 x1 x2 x3 : FVec Ideal S2000x8 .f32) (A0 A1 A2 A3 : S2000000x8.Idx → EReal) (t : Nat)
    (h0 : ∀ (y : S2000x8.Idx) (k : S2000000x8.Idx), (k 0).val = 2000 * t + (y 0).val → (k 1).val = (y 1).val → x0 y = A0 k)
    (h1 : ∀ (y : S2000x8.Idx) (k : S2000000x8.Idx), (k 0).val = 2000 * t + (y 0).val → (k 1).val = (y 1).val → x1 y = A1 k)
    (h2 : ∀ (y : S2000x8.Idx) (k : S2000000x8.Idx), (k 0).val = 2000 * t + (y 0).val → (k 1).val = (y 1).val → x2 y = A2 k)
    (h3 : ∀ (y : S2000x8.Idx) (k : S2000000x8.Idx), (k 0).val = 2000 * t + (y 0).val → (k 1).val = (y 1).val → x3 y = A3 k)
    (y : S2000x8.Idx) (i : S2000000x8.Idx) (hi0 : (i 0).val = 2000 * t + (y 0).val) (hi1 : (i 1).val = (y 1).val) :
    k0_pay2 (F := Ideal) (k0_pay4 (F := Ideal) x2 x1 x0) (k0_pay5 (F := Ideal) x2 x3) y = wholeAct (n := 2000000) A0 A1 A2 A3 i := by
  obtain ⟨p, q, rfl⟩ : ∃ (p : Fin 2000) (q : Fin 8), y = ix2 p q := ⟨y 0, y 1, eq_ix2 y⟩
  obtain ⟨r, q', rfl⟩ : ∃ (r : Fin 2000000) (q' : Fin 8), i = ix2 r q' := ⟨i 0, i 1, eq_ix2 i⟩
  obtain rfl : q' = q := Fin.ext hi1
  rw [Rows.act_apply, wholeAct_apply, rowAt_block x0 A0 t h0 p r hi0, rowAt_block x1 A1 t h1 p r hi0,
    rowAt_block x2 A2 t h2 p r hi0, rowAt_block x3 A3 t h3 p r hi0]

/-- The same for the mask column, which depends on the activities only. -/
theorem block_mask (x2 : FVec Ideal S2000x8 .f32) (A2 : S2000000x8.Idx → EReal) (t : Nat)
    (h2 : ∀ (y : S2000x8.Idx) (k : S2000000x8.Idx), (k 0).val = 2000 * t + (y 0).val → (k 1).val = (y 1).val → x2 y = A2 k)
    (y : S2000x1.Idx) (i : S2000000x1.Idx) (hi0 : (i 0).val = 2000 * t + (y 0).val) :
    k0_pay3 (F := Ideal) x2 y = wholeMask (n := 2000000) A2 i := by
  obtain ⟨p, u, rfl⟩ : ∃ (p : Fin 2000) (u : Fin 1), y = ix2 p u := ⟨y 0, y 1, eq_ix2 y⟩
  obtain ⟨r, u', rfl⟩ : ∃ (r : Fin 2000000) (u' : Fin 1), i = ix2 r u' := ⟨i 0, i 1, eq_ix2 i⟩
  rw [Rows.active_apply, wholeMask_apply, rowAt_block x2 A2 t h2 p r hi0]

/-! ## What each point writes back -/

/-- Point `t` writes back block `t` of the new pre-activities of the whole arrays. -/
theorem flushed4_eq (c : Dev nD) (t : Fin cfg0.N) :
    (dats m 0 c).flushed 4 t = ((cfg0.win 4).blk t).view.read (Elt Ideal)
      (wholePre (n := 2000000) (V m c main_arg0) (V m c main_arg1) (V m c main_arg2) (V m c main_arg3)) := by
  show (cfg0.win 4).cut (grid0.coords t) ((dats m 0 c).after 4 t) = _
  rw [after0_4]
  unfold out0_4
  rw [View.canon_unit_zero hz]
  simp only [View.ld_unit_zero (S := S2000x8) hz]
  funext j
  rw [View.read_apply]
  refine block_pre (iblk m c 0 t) (iblk m c 1 t) (iblk m c 2 t) (iblk m c 3 t)
    (V m c main_arg0) (V m c main_arg1) (V m c main_arg2) (V m c main_arg3) t.val
    (iblk0_apply m c t) (iblk1_apply m c t) (iblk2_apply m c t) (iblk3_apply m c t) j _ ?_ ?_
  · show win0_4.index t (0 : Fin 2) * 2000 + 1 * (j 0).val = 2000 * t.val + (j 0).val
    rw [(idx4 t).1]; omega
  · show win0_4.index t (1 : Fin 2) * 8 + 1 * (j 1).val = (j 1).val
    rw [(idx4 t).2]; omega

/-- Point `t` writes back block `t` of the new activities. -/
theorem flushed5_eq (c : Dev nD) (t : Fin cfg0.N) :
    (dats m 0 c).flushed 5 t = ((cfg0.win 5).blk t).view.read (Elt Ideal)
      (wholeAct (n := 2000000) (V m c main_arg0) (V m c main_arg1) (V m c main_arg2) (V m c main_arg3)) := by
  show (cfg0.win 5).cut (grid0.coords t) ((dats m 0 c).after 5 t) = _
  rw [after0_5]
  unfold out0_5
  rw [View.canon_unit_zero hz]
  simp only [View.ld_unit_zero (S := S2000x8) hz]
  funext j
  rw [View.read_apply]
  refine block_act (iblk m c 0 t) (iblk m c 1 t) (iblk m c 2 t) (iblk m c 3 t)
    (V m c main_arg0) (V m c main_arg1) (V m c main_arg2) (V m c main_arg3) t.val
    (iblk0_apply m c t) (iblk1_apply m c t) (iblk2_apply m c t) (iblk3_apply m c t) j _ ?_ ?_
  · show win0_5.index t (0 : Fin 2) * 2000 + 1 * (j 0).val = 2000 * t.val + (j 0).val
    rw [(idx5 t).1]; omega
  · show win0_5.index t (1 : Fin 2) * 8 + 1 * (j 1).val = (j 1).val
    rw [(idx5 t).2]; omega

/-- Point `t` writes back block `t` of the mask column. -/
theorem flushed6_eq (c : Dev nD) (t : Fin cfg0.N) :
    (dats m 0 c).flushed 6 t = ((cfg0.win 6).blk t).view.read (Elt Ideal)
      (wholeMask (n := 2000000) (V m c main_arg2)) := by
  show (cfg0.win 6).cut (grid0.coords t) ((dats m 0 c).after 6 t) = _
  rw [after0_6]
  unfold out0_6
  rw [View.canon_unit_zero hz]
  simp only [View.ld_unit_zero (S := S2000x8) hz]
  funext j
  rw [View.read_apply]
  refine block_mask (iblk m c 2 t) (V m c main_arg2) t.val (iblk2_apply m c t) j _ ?_
  show win0_6.index t (0 : Fin 2) * 2000 + 1 * (j 0).val = 2000 * t.val + (j 0).val
  rw [(idx6 t).1]; omega

/-! ## The blocks tile the results -/

/-- An index of result 0 lies in point `t`'s block iff each coordinate lies in the block's range on its axis. -/
theorem mem_blk4 (t : Fin cfg0.N) (i : S2000000x8.Idx) :
    i ∈ ((cfg0.win 4).blk t).view.set ↔ ∀ a : Fin 2, win0_4.index t a * S2000x8.size a ≤ (i a).val
      ∧ (i a).val < win0_4.index t a * S2000x8.size a + S2000x8.size a := by
  show i ∈ ((View.whole main_v0_0).slice (win0_4.rect t)).set ↔ _
  rw [View.set_slice_whole, Rect.mem_set_unit]
  exact Iff.rfl

/-- Row `r` of result 0 is in the block of point `r / 2000`: the blocks tile the array. -/
theorem cover4 (i : S2000000x8.Idx) :
    ∃ t : Fin cfg0.N, (cfg0.win 4).flush t = true ∧ i ∈ ((cfg0.win 4).blk t).view.set := by
  have hi0 : (i 0).val < 2000000 := (i 0).isLt
  have hi1 : (i 1).val < 8 := (i 1).isLt
  have hN : cfg0.N = 1000 := N_0
  refine ⟨⟨(i 0).val / 2000, by rw [hN]; omega⟩, flush0_4 _, ?_⟩
  rw [mem_blk4]
  intro a
  match a with
  | ⟨0, _⟩ =>
    show win0_4.index _ (0 : Fin 2) * 2000 ≤ (i 0).val ∧ (i 0).val < win0_4.index _ (0 : Fin 2) * 2000 + 2000
    rw [(idx4 _).1]
    show (i 0).val / 2000 * 2000 ≤ (i 0).val ∧ (i 0).val < (i 0).val / 2000 * 2000 + 2000
    omega
  | ⟨1, _⟩ =>
    show win0_4.index _ (1 : Fin 2) * 8 ≤ (i 1).val ∧ (i 1).val < win0_4.index _ (1 : Fin 2) * 8 + 8
    rw [(idx4 _).2]
    omega

/-- An index of result 1 lies in point `t`'s block iff each coordinate lies in the block's range on its axis. -/
theorem mem_blk5 (t : Fin cfg0.N) (i : S2000000x8.Idx) :
    i ∈ ((cfg0.win 5).blk t).view.set ↔ ∀ a : Fin 2, win0_5.index t a * S2000x8.size a ≤ (i a).val
      ∧ (i a).val < win0_5.index t a * S2000x8.size a + S2000x8.size a := by
  show i ∈ ((View.whole main_v0_1).slice (win0_5.rect t)).set ↔ _
  rw [View.set_slice_whole, Rect.mem_set_unit]
  exact Iff.rfl

/-- Row `r` of result 1 is in the block of point `r / 2000`: the blocks tile the array. -/
theorem cover5 (i : S2000000x8.Idx) :
    ∃ t : Fin cfg0.N, (cfg0.win 5).flush t = true ∧ i ∈ ((cfg0.win 5).blk t).view.set := by
  have hi0 : (i 0).val < 2000000 := (i 0).isLt
  have hi1 : (i 1).val < 8 := (i 1).isLt
  have hN : cfg0.N = 1000 := N_0
  refine ⟨⟨(i 0).val / 2000, by rw [hN]; omega⟩, flush0_5 _, ?_⟩
  rw [mem_blk5]
  intro a
  match a with
  | ⟨0, _⟩ =>
    show win0_5.index _ (0 : Fin 2) * 2000 ≤ (i 0).val ∧ (i 0).val < win0_5.index _ (0 : Fin 2) * 2000 + 2000
    rw [(idx5 _).1]
    show (i 0).val / 2000 * 2000 ≤ (i 0).val ∧ (i 0).val < (i 0).val / 2000 * 2000 + 2000
    omega
  | ⟨1, _⟩ =>
    show win0_5.index _ (1 : Fin 2) * 8 ≤ (i 1).val ∧ (i 1).val < win0_5.index _ (1 : Fin 2) * 8 + 8
    rw [(idx5 _).2]
    omega

/-- An index of result 2 lies in point `t`'s block iff each coordinate lies in the block's range on its axis. -/
theorem mem_blk6 (t : Fin cfg0.N) (i : S2000000x1.Idx) :
    i ∈ ((cfg0.win 6).blk t).view.set ↔ ∀ a : Fin 2, win0_6.index t a * S2000x1.size a ≤ (i a).val
      ∧ (i a).val < win0_6.index t a * S2000x1.size a + S2000x1.size a := by
  show i ∈ ((View.whole main_v0_2).slice (win0_6.rect t)).set ↔ _
  rw [View.set_slice_whole, Rect.mem_set_unit]
  exact Iff.rfl

/-- Row `r` of result 2 is in the block of point `r / 2000`: the blocks tile the array. -/
theorem cover6 (i : S2000000x1.Idx) :
    ∃ t : Fin cfg0.N, (cfg0.win 6).flush t = true ∧ i ∈ ((cfg0.win 6).blk t).view.set := by
  have hi0 : (i 0).val < 2000000 := (i 0).isLt
  have hi1 : (i 1).val < 1 := (i 1).isLt
  have hN : cfg0.N = 1000 := N_0
  refine ⟨⟨(i 0).val / 2000, by rw [hN]; omega⟩, flush0_6 _, ?_⟩
  rw [mem_blk6]
  intro a
  match a with
  | ⟨0, _⟩ =>
    show win0_6.index _ (0 : Fin 2) * 2000 ≤ (i 0).val ∧ (i 0).val < win0_6.index _ (0 : Fin 2) * 2000 + 2000
    rw [(idx6 _).1]
    show (i 0).val / 2000 * 2000 ≤ (i 0).val ∧ (i 0).val < (i 0).val / 2000 * 2000 + 2000
    omega
  | ⟨1, _⟩ =>
    show win0_6.index _ (1 : Fin 2) * 1 ≤ (i 1).val ∧ (i 1).val < win0_6.index _ (1 : Fin 2) * 1 + 1
    rw [(idx6 _).2]
    omega

/-! ## The results after the run -/

theorem final4 (c : Dev nD) : (dats m 0 c).arrAt 4 cfg0.N
    = wholePre (n := 2000000) (V m c main_arg0) (V m c main_arg1) (V m c main_arg2) (V m c main_arg3) :=
  (dats m 0 c).arrAt_eq_of_cover 4 _ (fun t _ => flushed4_eq m c t) cover4

theorem final5 (c : Dev nD) : (dats m 0 c).arrAt 5 cfg0.N
    = wholeAct (n := 2000000) (V m c main_arg0) (V m c main_arg1) (V m c main_arg2) (V m c main_arg3) :=
  (dats m 0 c).arrAt_eq_of_cover 5 _ (fun t _ => flushed5_eq m c t) cover5

theorem final6 (c : Dev nD) : (dats m 0 c).arrAt 6 cfg0.N = wholeMask (n := 2000000) (V m c main_arg2) :=
  (dats m 0 c).arrAt_eq_of_cover 6 _ (fun t _ => flushed6_eq m c t) cover6

/-- Every weakly fair execution of the kernel's program ends with the three results at the step applied row by row
    to the arguments, and the arguments as launched. -/
theorem run : θ_run defs (onTc (τ := τ) (main (F := Ideal))) ⟨m, fun _ => 0, ρ⟩ fun r => ∀ c : Dev nD,
      r.2.mem ((c : Thread nD τ).loc main_v0_0) = wholePre (n := 2000000) (m ((c : Thread nD τ).loc main_arg0))
          (m ((c : Thread nD τ).loc main_arg1)) (m ((c : Thread nD τ).loc main_arg2)) (m ((c : Thread nD τ).loc main_arg3))
      ∧ r.2.mem ((c : Thread nD τ).loc main_v0_1) = wholeAct (n := 2000000) (m ((c : Thread nD τ).loc main_arg0))
          (m ((c : Thread nD τ).loc main_arg1)) (m ((c : Thread nD τ).loc main_arg2)) (m ((c : Thread nD τ).loc main_arg3))
      ∧ r.2.mem ((c : Thread nD τ).loc main_v0_2) = wholeMask (n := 2000000) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨((h c).1 4).trans (final4 m c), ((h c).1 5).trans (final5 m c),
      ((h c).1 6).trans (final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Arrays

end
-- ==== Proof.RefRows.lean ====
/-
  The reference, read one entry at a time. It works on all 2,000,000 rows at once, and again every row is treated on its
  own. Entry (r, q) of each of its three results is the row function of row r of the four arguments:

    the mask column   — the conjunction over the row of the threshold flags, converted — is `mask` of the row;
    the drive column  — the row sum of (activities × Γ) from 0, Γ selected from two coordinate grids — is `recur` of the row;
    the two results   — the pointwise arithmetic around those two columns — are `preRow` and `actRow`.

  A conjunction of flags is set exactly when every flag is; adding 0 to a coordinate does not change it.
-/
import proofs.«166206_j27771258536509_2_alg».proof.Proof.Gen.ReferenceIdeal.Read
import proofs.«166206_j27771258536509_2_alg».proof.Proof.LcaRow

noncomputable section

open scoped BigOperators
open Idealize.ShloMosaic Idealize.ShloMosaic.ValueIdx

namespace Cert.ReferenceIdeal.Rows

open Cert.ReferenceIdeal Cert.ReferenceIdeal.Gen Cert.ReferenceIdeal.Read Cert.Lca

/-- The row reduction's shape fact in the form that names the inserted index. -/
theorem hred : S2000000x8.Reduces [1] S2000000 := by decide

/-- Putting column `k` back into the reduced index `r` names entry (r, k). -/
theorem lift_row (r : Fin 2000000) (k : Fin (S2000000x8.size 1)) :
    hred.lift (ix1 r) k = ix2 r (⟨k.val, k.isLt⟩ : Fin 8) := by
  funext c; apply Fin.ext
  fin_cases c <;> rfl

/-! ## The mask column -/

theorem flag_apply (x2 : FVec Ideal S2000000x8 .f32) (r : Fin 2000000) (k : Fin 8) :
    val_main_v2 (F := Ideal) x2 (ix2 r k) = flag (x2 (ix2 r k)) := by
  rw [val_main_v2_apply, val_main_v0_apply, val_main_v1_apply, val_main_cst_apply]
  rfl

/-- The conjunction over row r is set exactly when each of the row's eight flags is. -/
theorem all_row (x2 : FVec Ideal S2000000x8 .f32) (r : Fin 2000000) :
    val_main_v3 (F := Ideal) x2 (ix1 r) = 1#1 ↔ ∀ k : Fin 8, flag (rowAt x2 r k) = 1#1 := by
  unfold val_main_v3
  rw [Host.reduce_eq_fold_single IntOp.andi _ _ reducesTo_S2000000x8_S2000000_d1 hred h_S_ (ix1 r)]
  show Finset.fold IntOp.andi 1#1 (val_main_v2 (F := Ideal) x2 ∘ hred.lift (ix1 r)) Finset.univ = 1#1 ↔ _
  rw [fold_andi_eq_one]
  constructor
  · intro h k
    have e : val_main_v2 (F := Ideal) x2 (hred.lift (ix1 r) k) = 1#1 := h k (Finset.mem_univ _)
    rw [lift_row r k, flag_apply] at e
    exact e
  · intro h k _
    show val_main_v2 (F := Ideal) x2 (hred.lift (ix1 r) k) = 1#1
    rw [lift_row r k, flag_apply]
    exact h _

theorem idx_v4 (r : Fin 2000000) (u : Fin 1) : idx_main_v4 (ix2 r u) = ix1 r :=
  funext fun a => Fin.ext (by match a with | ⟨0, _⟩ => rfl)

/-- Entry (r, ·) of the mask column is the mask of row r. -/
theorem active_apply (x2 : FVec Ideal S2000000x8 .f32) (r : Fin 2000000) (u : Fin 1) :
    val_main_v5 (F := Ideal) x2 (ix2 r u) = mask (rowAt x2 r) := by
  rw [val_main_v5_apply, val_main_v4_apply, idx_v4]
  exact mask_of_and (rowAt x2 r) _ (all_row x2 r)

/-! ## The drive column -/

theorem gamma_apply (k c : Fin 8) : val_main_v11 (F := Ideal) (ix2 k c) = gam k c := by
  rw [val_main_v11_apply, val_main_v10_apply, val_main_v9_apply, val_main_v6_apply, val_main_v8_apply,
    val_main_c_0_apply, val_main_v7_apply, val_main_call0_v0_apply, val_main_cst_1_apply, val_main_call0_v1_apply,
    val_main_cst_2_apply]
  show Scalar.select (IntOp.cmpi .eq (BitVec.ofNat 32 k.val + 0#32) (BitVec.ofNat 32 c.val)) _ _ = _
  rw [BitVec.add_zero]
  exact select_coords k c

theorem idx_v14 (r : Fin 2000000) (u : Fin 1) : idx_main_v14 (ix2 r u) = ix1 r :=
  funext fun a => Fin.ext (by match a with | ⟨0, _⟩ => rfl)
theorem idx_v13 (r : Fin 2000000) (k : Fin 8) : idx_main_v13 (ix1 r) k = ix2 r k :=
  funext fun a => Fin.ext (by match a with | ⟨0, _⟩ => rfl | ⟨1, _⟩ => rfl)
theorem lidx_v12 (r : Fin 2000000) (c k : Fin 8) : lidx_main_v12 (ix2 r c) k = ix2 r k :=
  funext fun a => Fin.ext (by match a with | ⟨0, _⟩ => rfl | ⟨1, _⟩ => rfl)
theorem ridx_v12 (r : Fin 2000000) (c k : Fin 8) : ridx_main_v12 (ix2 r c) k = ix2 k c :=
  funext fun a => Fin.ext (by match a with | ⟨0, _⟩ => rfl | ⟨1, _⟩ => rfl)

/-- Entry (r, ·) of the drive column is the recurrent drive of row r. -/
theorem recur_apply (x2 : FVec Ideal S2000000x8 .f32) (r : Fin 2000000) (u : Fin 1) :
    val_main_v14 (F := Ideal) x2 (ix2 r u) = recur (rowAt x2 r) := by
  rw [val_main_v14_apply, idx_v14, val_main_v13_apply, val_main_cst_3_apply]
  show Ideal.ofBits .f32 0x00000000#32 + _ = _
  rw [lit_zero, zero_add]
  unfold recur
  refine Finset.sum_congr rfl fun c _ => ?_
  rw [idx_v13, val_main_v12_apply]
  refine Finset.sum_congr rfl fun k _ => ?_
  rw [lidx_v12, ridx_v12, gamma_apply]
  rfl

/-! ## The results -/

theorem idx_v18 (r : Fin 2000000) (q : Fin 8) : idx_main_v18 (ix2 r q) = ix2 r (0 : Fin 1) :=
  funext fun a => Fin.ext (by match a with | ⟨0, _⟩ => rfl | ⟨1, _⟩ => rfl)
theorem idx_v20 (r : Fin 2000000) (q : Fin 8) : idx_main_v20 (ix2 r q) = ix2 r (0 : Fin 1) :=
  funext fun a => Fin.ext (by match a with | ⟨0, _⟩ => rfl | ⟨1, _⟩ => rfl)
theorem idx_v27 (r : Fin 2000000) (q : Fin 8) : idx_main_v27 (ix2 r q) = ix2 r (0 : Fin 1) :=
  funext fun a => Fin.ext (by match a with | ⟨0, _⟩ => rfl | ⟨1, _⟩ => rfl)

/-- Entry (r, q) of the first result: `x0` the input, `x1` the pre-activities, `x2` the activities, `x3` the noise. -/
theorem pre_apply (x0 x1 x2 x3 : FVec Ideal S2000000x8 .f32) (r : Fin 2000000) (q : Fin 8) :
    val_main_v31 (F := Ideal) x0 x1 x2 x3 (ix2 r q)
      = preRow (rowAt x0 r) (rowAt x1 r) (rowAt x2 r) (rowAt x3 r) q := by
  rw [val_main_v31_apply, val_main_v24_apply, val_main_v23_apply, val_main_v21_apply, val_main_v19_apply,
    val_main_v17_apply, val_main_v16_apply, val_main_v15_apply, val_main_cst_4_apply, val_main_v18_apply, idx_v18,
    recur_apply, val_main_v20_apply, idx_v20, active_apply, val_main_v22_apply, val_main_cst_5_apply,
    val_main_v30_apply, val_main_v28_apply, val_main_v27_apply, idx_v27, val_main_v26_apply, active_apply,
    val_main_v25_apply, val_main_cst_6_apply, val_main_v29_apply, val_main_cst_7_apply]
  rfl

/-- Entry (r, q) of the second result. -/
theorem act_apply (x0 x1 x2 x3 : FVec Ideal S2000000x8 .f32) (r : Fin 2000000) (q : Fin 8) :
    val_main_v32 (F := Ideal) x0 x1 x2 x3 (ix2 r q)
      = actRow (rowAt x0 r) (rowAt x1 r) (rowAt x2 r) (rowAt x3 r) q := by
  rw [val_main_v32_apply, pre_apply, val_main_call1_v0_apply, val_main_call1_cst_apply]
  rfl

/-! ## The results as whole arrays -/

/-- The first result is the new pre-activities of the arguments, row by row. -/
theorem pre_eq (x0 x1 x2 x3 : FVec Ideal S2000000x8 .f32) :
    val_main_v31 (F := Ideal) x0 x1 x2 x3 = wholePre (n := 2000000) x0 x1 x2 x3 := by
  funext i
  obtain ⟨r, q, rfl⟩ : ∃ (r : Fin 2000000) (q : Fin 8), i = ix2 r q := ⟨i 0, i 1, eq_ix2 i⟩
  exact pre_apply x0 x1 x2 x3 r q

/-- The second result is the new activities. -/
theorem act_eq (x0 x1 x2 x3 : FVec Ideal S2000000x8 .f32) :
    val_main_v32 (F := Ideal) x0 x1 x2 x3 = wholeAct (n := 2000000) x0 x1 x2 x3 := by
  funext i
  obtain ⟨r, q, rfl⟩ : ∃ (r : Fin 2000000) (q : Fin 8), i = ix2 r q := ⟨i 0, i 1, eq_ix2 i⟩
  exact act_apply x0 x1 x2 x3 r q

/-- The third result is the mask, one entry per row. -/
theorem mask_eq (x2 : FVec Ideal S2000000x8 .f32) :
    val_main_v5 (F := Ideal) x2 = wholeMask (n := 2000000) x2 := by
  funext i
  obtain ⟨r, u, rfl⟩ : ∃ (r : Fin 2000000) (u : Fin 1), i = ix2 r u := ⟨i 0, i 1, eq_ix2 i⟩
  exact active_apply x2 r u

end Cert.ReferenceIdeal.Rows

end
-- ==== Proof.lean ====
/-
  The kernel and its reference take one step of a leaky competing accumulator on 2,000,000 rows of eight accumulators
  each. Both programs treat every row on its own: from the row's activities they form the mask (1 while every accumulator
  is below the threshold) and the recurrent drive (the row sum of activities × Γ), and from these, the row's input,
  pre-activities and noise the new pre-activities and their rectification (Proof/LcaRow.lean has the row functions).

  The kernel does this block by block, 2000 rows at a grid point; its mask is a minimum of 0/1 flags compared with 0, its
  drive a matrix product into a zero accumulator summed over the columns (Proof/KernelRows.lean). Each point writes back its
  block of the row-by-row function of the whole arguments, and the blocks tile the results (Proof/KernelArrays.lean). The
  reference does it on whole arrays; its mask is a conjunction of flags, its drive a plain dot_general summed over the columns
  from 0 (Proof/RefRows.lean). On the extended reals the two masks are the same 0/1 value and the two drives the same double
  sum, term by term in the same order, so the three results are equal arrays for all inputs, finite or not: the
  precondition is never opened. The idealization rewrote nothing, so the fourth conjunct is `True`.
-/
import proofs.«166206_j27771258536509_2_alg».proof.Defs
import proofs.«166206_j27771258536509_2_alg».proof.Proof.Gen.Kernel
import proofs.«166206_j27771258536509_2_alg».proof.Proof.Gen.Kernel.Frame
import proofs.«166206_j27771258536509_2_alg».proof.Proof.Gen.KernelIdeal
import proofs.«166206_j27771258536509_2_alg».proof.Proof.Gen.KernelIdeal.Frame
import proofs.«166206_j27771258536509_2_alg».proof.Proof.Gen.ReferenceIdeal
import proofs.«166206_j27771258536509_2_alg».proof.Proof.Gen.ReferenceIdeal.Run
import proofs.«166206_j27771258536509_2_alg».proof.Proof.Gen.ReferenceIdeal.Read
import proofs.«166206_j27771258536509_2_alg».proof.Proof.Gen.Pre_finite_inputs
import proofs.«166206_j27771258536509_2_alg».proof.Proof.KernelArrays
import proofs.«166206_j27771258536509_2_alg».proof.Proof.RefRows
import Idealize.ShloMosaic.Adequacy
import Idealize.ShloMosaic.Init

noncomputable section

namespace Cert.Proof

open Idealize.ShloMosaic Idealize.ShloMosaic.TcCoe Idealize.SL.Sem Cert.Lca

/-- The word-level kernel runs and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference runs and leaves its arguments as launched: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with the step applied row by row to the arguments they agree on. -/
theorem algebraic : Cert.algebraic_KernelIdeal_ReferenceIdeal := by
  intro m ρ m' ρ' _ hagree
  refine ⟨_, _, _, Cert.KernelIdeal.Arrays.run m ρ, ?_⟩
  refine (θ_run Cert.ReferenceIdeal.defs _ _).mono (fun _ h c => ?_) (Cert.ReferenceIdeal.Value.run (F := Ideal) m' ρ')
  obtain ⟨e0, e1, e2, e3⟩ := hagree c
  obtain ⟨r0, r1, r2, k⟩ := h c
  refine ⟨r0.trans ?_, r1.trans ?_, r2.trans ?_, k⟩
  · rw [Cert.ReferenceIdeal.Read.val_main_v31_eq, Cert.ReferenceIdeal.Rows.pre_eq, e0, e1, e2, e3]
  · rw [Cert.ReferenceIdeal.Read.val_main_v32_eq, Cert.ReferenceIdeal.Rows.act_eq, e0, e1, e2, e3]
  · rw [Cert.ReferenceIdeal.Read.val_main_v5_eq, Cert.ReferenceIdeal.Rows.mask_eq, e2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
